-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S11008 : Shape := ⟨1, ![11008]⟩
abbrev S1x11008 : Shape := ⟨2, ![1, 11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008 : S_.BroadcastsInDim S11008 (![] : Fin 0 → Fin S11008.rank)
  reducesTo_S11008_S_d0 : S11008.ReducesTo [0] S_
  bcast_S_S1x11008 : S_.BroadcastsInDim S1x11008 (![] : Fin 0 → Fin S1x11008.rank)
  reducesTo_S1x11008_S_d0_1 : S1x11008.ReducesTo [0, 1] S_

variable [Facts]

def fn {F : FTy → Type} [FloatOps F] (main_arg0 : FVec F S4096x4096 .f32) (main_arg1 : IVec S11008x4096 32) (main_arg2 : FVec F S11008 .f32) (main_arg3 : FVec F S1x11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S1x11008 .f32 := Host.absf main_arg3
  let main_cst_2 : FVec F S_ .f32 := constant S_ .f32 0x7F800000#32
  let main_v10 : FVec F S1x11008 .f32 := broadcastInDim S1x11008 ![] bcast_S_S1x11008 main_cst_2
  let main_v11 : IVec S1x11008 1 := cmpf .olt main_v9 main_v10
  let main_c_3 : IVec S_ 1 := constantI S_ 1 1#1
  let main_v12 : IVec S_ 1 := (fun x v => Host.reduce IntOp.andi x v reducesTo_S1x11008_S_d0_1 h_S_) main_v11 main_c_3
  let main_v13 : IVec S_ 1 := andi main_v8 main_v12
  main_v13
-- ==== Kernel.lean ====
abbrev S4096x4096 : Shape := ⟨2, ![4096, 4096]⟩
abbrev S11008x4096 : Shape := ⟨2, ![11008, 4096]⟩
abbrev S11008 : Shape := ⟨1, ![11008]⟩
abbrev S1x11008 : Shape := ⟨2, ![1, 11008]⟩
abbrev S4096x11008 : Shape := ⟨2, ![4096, 11008]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008, .f32⟩
  | .hbm, ⟨3, _⟩ => ⟨S1x11008, .f32⟩
  | .hbm, ⟨4, _⟩ => ⟨S1x11008, .f32⟩
  | .hbm, ⟨5, _⟩ => ⟨S4096x11008, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 11, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S11008_S1x11008 : S11008.ShapeCasts S1x11008
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S11008x4096.size a
  hwx0_1 : ∀ i : grid0.Coords, EltTy.bits .i32 = 32 ∨ (Rect.unit (s := S11008x4096) (fun a => cc0_transform_1 i a * S1024x512.size a) (fun a => (Pipeline.Clip.of (cc0_transform_1 i a) (S1024x512.size a) (S11008x4096.size a)).extent (S1024x512.size a)) fun a => Pipeline.Clip.inb (Pipeline.Clip.ok_of (hstart0_1 i a))).WholeWords (EltTy.packing .i32)
  hwxs0_1 : ∀ i : grid0.Coords, EltTy.bits .i32 = 32 ∨ (Rect.unit (s := S1024x512) (fun _ => 0) (fun a => (Pipeline.Clip.of (cc0_transform_1 i a) (S1024x512.size a) (S11008x4096.size a)).extent (S1024x512.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1024.size a < S1x11008.size a
  hwx0_2 : ∀ i : grid0.Coords, EltTy.bits .f32 = 32 ∨ (Rect.unit (s := S1x11008) (fun a => cc0_transform_2 i a * S1x1024.size a) (fun a => (Pipeline.Clip.of (cc0_transform_2 i a) (S1x1024.size a) (S1x11008.size a)).extent (S1x1024.size a)) fun a => Pipeline.Clip.inb (Pipeline.Clip.ok_of (hstart0_2 i a))).WholeWords (EltTy.packing .f32)
  hwxs0_2 : ∀ i : grid0.Coords, EltTy.bits .f32 = 32 ∨ (Rect.unit (s := S1x1024) (fun _ => 0) (fun a => (Pipeline.Clip.of (cc0_transform_2 i a) (S1x1024.size a) (S1x11008.size a)).extent (S1x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1024.size a < S1x11008.size a
  hwx0_3 : ∀ i : grid0.Coords, EltTy.bits .f32 = 32 ∨ (Rect.unit (s := S1x11008) (fun a => cc0_transform_3 i a * S1x1024.size a) (fun a => (Pipeline.Clip.of (cc0_transform_3 i a) (S1x1024.size a) (S1x11008.size a)).extent (S1x1024.size a)) fun a => Pipeline.Clip.inb (Pipeline.Clip.ok_of (hstart0_3 i a))).WholeWords (EltTy.packing .f32)
  hwxs0_3 : ∀ i : grid0.Coords, EltTy.bits .f32 = 32 ∨ (Rect.unit (s := S1x1024) (fun _ => 0) (fun a => (Pipeline.Clip.of (cc0_transform_3 i a) (S1x1024.size a) (S1x11008.size a)).extent (S1x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x1024.size a < S4096x11008.size a
  hwx0_4 : ∀ i : grid0.Coords, EltTy.bits .f32 = 32 ∨ (Rect.unit (s := S4096x11008) (fun a => cc0_transform_4 i a * S1024x1024.size a) (fun a => (Pipeline.Clip.of (cc0_transform_4 i a) (S1024x1024.size a) (S4096x11008.size a)).extent (S1024x1024.size a)) fun a => Pipeline.Clip.inb (Pipeline.Clip.ok_of (hstart0_4 i a))).WholeWords (EltTy.packing .f32)
  hwxs0_4 : ∀ i : grid0.Coords, EltTy.bits .f32 = 32 ∨ (Rect.unit (s := S1024x1024) (fun _ => 0) (fun a => (Pipeline.Clip.of (cc0_transform_4 i a) (S1024x1024.size a) (S4096x11008.size a)).extent (S1024x1024.size a)) fun a => (Nat.zero_add _).trans_le (Pipeline.Clip.extent_le (Pipeline.Clip.ok_of (hstart0_4 i a)))).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S1x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v1) S1024x1024.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S11008x4096 : Shape := ⟨2, ![11008, 4096]⟩
abbrev S11008 : Shape := ⟨1, ![11008]⟩
abbrev S1x11008 : Shape := ⟨2, ![1, 11008]⟩
abbrev S4096x11008 : Shape := ⟨2, ![4096, 11008]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008, .f32⟩
  | .hbm, ⟨3, _⟩ => ⟨S1x11008, .f32⟩
  | .hbm, ⟨4, _⟩ => ⟨S11008x4096, .f32⟩
  | .hbm, ⟨5, _⟩ => ⟨S4096x11008, .f32⟩
  | .hbm, ⟨6, _⟩ => ⟨S1x11008, .f32⟩
  | .hbm, ⟨7, _⟩ => ⟨S4096x11008, .f32⟩
  | .hbm, ⟨8, _⟩ => ⟨S4096x11008, .f32⟩
  | .hbm, ⟨9, _⟩ => ⟨S4096x11008, .f32⟩
  | .hbm, ⟨10, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S11008x4096_S4096x11008_1_1_0_0_n_n_wf : DotDims.WF S4096x4096 S11008x4096 S4096x11008 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf

class Facts : Prop extends Facts₀ where

variable [Facts]
-- ==== Proof.KernelFrame.lean ====
/-
  The FRAME of the word-level program `Cert.Kernel`: every weakly fair execution of @main terminates, nothing
  faults, and the four argument arrays end as they were launched.

  Why the arguments are never written. @main reshapes the scale vector into a fresh buffer and then runs one
  pipelined region. The region's windows are: three INPUT windows on argument arrays (the activations, the integer
  weights, the bias row), one input window on the reshaped scales, and one OUTPUT window on the result. The pipeline
  only ever copies FROM an input window's array into a staging buffer, so an input array ends at its entry contents
  whatever the body does; the scale vector itself is no window's array and no scoped buffer, so the region does not
  touch it at all. The body, at every grid point, loads and stores only whole staging buffers and the whole scratch
  accumulator, all of which it owns outright: so it runs without fault on ANY contents, and hands every buffer back
  at SOME contents. Nothing about values is needed: every window's staging contents are forgotten, and the region
  invariant is just "the scratch holds something, the generator register is in some state".
-/
import proofs.«105307_j18786186953100_1_alg».proof.Proof.Gen.Kernel.Frame
import proofs.«105307_j18786186953100_1_alg».proof.Proof.Gen.Kernel.Skeleton

set_option maxRecDepth 16384

noncomputable section

namespace Cert.Kernel.HandFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any contents -/

/-- The first conditional's condition: the feature-block coordinate is 0 (the accumulator is reset). -/
abbrev cond0 (i : grid0.Coords) : Prop := (Scalar.cmpi .ne (Scalar.extui (Scalar.cmpi .eq (BitVec.ofNat 32 (i 2).val) 0#32)) 0#32) = 1#1
/-- The second conditional's condition: the feature-block coordinate is the last (the output block is written). -/
abbrev cond1 (i : grid0.Coords) : Prop := k0_cond2 i = 1#1

/-- The six buffers the body touches — the four operand blocks, the output block, the scratch accumulator —, each
    owned outright at SOME contents. -/
def six (c : Dev nD) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) : sProp 𝕄 :=
  iprop((∃ X, owns (c : Thread nD τ) arg3 fullShare X) ∗ (∃ X, owns (c : Thread nD τ) arg4 fullShare X) ∗ (∃ X, owns (c : Thread nD τ) arg5 fullShare X)
    ∗ (∃ X, owns (c : Thread nD τ) arg6 fullShare X) ∗ (∃ X, owns (c : Thread nD τ) arg7 fullShare X) ∗ (∃ X, owns (c : Thread nD τ) arg8 fullShare X))

set_option maxHeartbeats 1000000 in
/-- At the first feature block and not the last: the scratch is loaded, overwritten with zeros, the two operand blocks and the scratch are loaded and the scratch stored; nothing else is touched.
    Every access is of a whole buffer the body owns outright, so each load and each store is allowed whatever the
    buffers hold, and the six buffers come back, the stored ones at new contents that are not named. -/
theorem run_A (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0 i) (hc1 : ¬cond1 i) (E : Set ℕ) (K : PUnit → sProp 𝕄) :
    iprop(six (F := F) c arg3 harg3 arg4 harg4 arg5 harg5 arg6 harg6 arg7 harg7 arg8 harg8 ∗ (six (F := F) c arg3 harg3 arg4 harg4 arg5 harg5 arg6 harg6 arg7 harg7 arg8 harg8 -∗ K ⟨⟩))
      ⊢ wp frame (wpE (defs₀ (F := F)) Variants.none c none) E (cc0__qint_matmul_kernel i arg3 harg3 arg4 harg4 arg5 harg5 arg6 harg6 arg7 harg7 arg8 harg8) K := by
  simp only [cc0__qint_matmul_kernel_eq_skeleton]; unfold cc0__qint_matmul_kernel_skel
  unfold six owns
  iintro ⟨⟨⟨%x3, %f3, -, H3⟩, ⟨%x4, %f4, -, H4⟩, ⟨%x5, %f5, -, H5⟩, ⟨%x6, %f6, -, H6⟩, ⟨%x7, %f7, -, H7⟩, ⟨%x8, %f8, -, H8⟩⟩, Hk⟩
  sl_exec (disch := first | exact hc0 | exact hc1)
  sl_step
  iapply Hk
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

set_option maxHeartbeats 1000000 in
/-- At a feature block that is neither the first nor the last: the two operand blocks and the scratch are loaded and the scratch stored.
    Every access is of a whole buffer the body owns outright, so each load and each store is allowed whatever the
    buffers hold, and the six buffers come back, the stored ones at new contents that are not named. -/
theorem run_B (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0 i) (hc1 : ¬cond1 i) (E : Set ℕ) (K : PUnit → sProp 𝕄) :
    iprop(six (F := F) c arg3 harg3 arg4 harg4 arg5 harg5 arg6 harg6 arg7 harg7 arg8 harg8 ∗ (six (F := F) c arg3 harg3 arg4 harg4 arg5 harg5 arg6 harg6 arg7 harg7 arg8 harg8 -∗ K ⟨⟩))
      ⊢ wp frame (wpE (defs₀ (F := F)) Variants.none c none) E (cc0__qint_matmul_kernel i arg3 harg3 arg4 harg4 arg5 harg5 arg6 harg6 arg7 harg7 arg8 harg8) K := by
  simp only [cc0__qint_matmul_kernel_eq_skeleton]; unfold cc0__qint_matmul_kernel_skel
  unfold six owns
  iintro ⟨⟨⟨%x3, %f3, -, H3⟩, ⟨%x4, %f4, -, H4⟩, ⟨%x5, %f5, -, H5⟩, ⟨%x6, %f6, -, H6⟩, ⟨%x7, %f7, -, H7⟩, ⟨%x8, %f8, -, H8⟩⟩, Hk⟩
  sl_exec (disch := first | exact hc0 | exact hc1)
  sl_step
  iapply Hk
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

set_option maxHeartbeats 1000000 in
/-- At the last feature block and not the first: as in the middle, then the scratch, the scale row, the bias row and the output block are loaded and the output block stored.
    Every access is of a whole buffer the body owns outright, so each load and each store is allowed whatever the
    buffers hold, and the six buffers come back, the stored ones at new contents that are not named. -/
theorem run_C (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0 i) (hc1 : cond1 i) (E : Set ℕ) (K : PUnit → sProp 𝕄) :
    iprop(six (F := F) c arg3 harg3 arg4 harg4 arg5 harg5 arg6 harg6 arg7 harg7 arg8 harg8 ∗ (six (F := F) c arg3 harg3 arg4 harg4 arg5 harg5 arg6 harg6 arg7 harg7 arg8 harg8 -∗ K ⟨⟩))
      ⊢ wp frame (wpE (defs₀ (F := F)) Variants.none c none) E (cc0__qint_matmul_kernel i arg3 harg3 arg4 harg4 arg5 harg5 arg6 harg6 arg7 harg7 arg8 harg8) K := by
  simp only [cc0__qint_matmul_kernel_eq_skeleton]; unfold cc0__qint_matmul_kernel_skel
  unfold six owns
  iintro ⟨⟨⟨%x3, %f3, -, H3⟩, ⟨%x4, %f4, -, H4⟩, ⟨%x5, %f5, -, H5⟩, ⟨%x6, %f6, -, H6⟩, ⟨%x7, %f7, -, H7⟩, ⟨%x8, %f8, -, H8⟩⟩, Hk⟩
  sl_exec (disch := first | exact hc0 | exact hc1)
  sl_step
  iapply Hk
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

set_option maxHeartbeats 1000000 in
/-- Both conditions at once (no grid point meets it, but the triple holds all the same): both guarded regions run.
    Every access is of a whole buffer the body owns outright, so each load and each store is allowed whatever the
    buffers hold, and the six buffers come back, the stored ones at new contents that are not named. -/
theorem run_D (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0 i) (hc1 : cond1 i) (E : Set ℕ) (K : PUnit → sProp 𝕄) :
    iprop(six (F := F) c arg3 harg3 arg4 harg4 arg5 harg5 arg6 harg6 arg7 harg7 arg8 harg8 ∗ (six (F := F) c arg3 harg3 arg4 harg4 arg5 harg5 arg6 harg6 arg7 harg7 arg8 harg8 -∗ K ⟨⟩))
      ⊢ wp frame (wpE (defs₀ (F := F)) Variants.none c none) E (cc0__qint_matmul_kernel i arg3 harg3 arg4 harg4 arg5 harg5 arg6 harg6 arg7 harg7 arg8 harg8) K := by
  simp only [cc0__qint_matmul_kernel_eq_skeleton]; unfold cc0__qint_matmul_kernel_skel
  unfold six owns
  iintro ⟨⟨⟨%x3, %f3, -, H3⟩, ⟨%x4, %f4, -, H4⟩, ⟨%x5, %f5, -, H5⟩, ⟨%x6, %f6, -, H6⟩, ⟨%x7, %f7, -, H7⟩, ⟨%x8, %f8, -, H8⟩⟩, Hk⟩
  sl_exec (disch := first | exact hc0 | exact hc1)
  sl_step
  iapply Hk
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

/-- The body at any grid point, on any whole buffers at any contents: it terminates without fault and hands the six
    buffers back at some contents. By cases on the two conditions. -/
theorem run_any (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (E : Set ℕ) (K : PUnit → sProp 𝕄) :
    iprop(six (F := F) c arg3 harg3 arg4 harg4 arg5 harg5 arg6 harg6 arg7 harg7 arg8 harg8 ∗ (six (F := F) c arg3 harg3 arg4 harg4 arg5 harg5 arg6 harg6 arg7 harg7 arg8 harg8 -∗ K ⟨⟩))
      ⊢ wp frame (wpE (defs₀ (F := F)) Variants.none c none) E (cc0__qint_matmul_kernel i arg3 harg3 arg4 harg4 arg5 harg5 arg6 harg6 arg7 harg7 arg8 harg8) K := by
  by_cases hc0 : cond0 i
  · by_cases hc1 : cond1 i
    · exact run_D c i arg3 harg3 arg4 harg4 arg5 harg5 arg6 harg6 arg7 harg7 arg8 harg8 hc0 hc1 E K
    · exact run_A c i arg3 harg3 arg4 harg4 arg5 harg5 arg6 harg6 arg7 harg7 arg8 harg8 hc0 hc1 E K
  · by_cases hc1 : cond1 i
    · exact run_C c i arg3 harg3 arg4 harg4 arg5 harg5 arg6 harg6 arg7 harg7 arg8 harg8 hc0 hc1 E K
    · exact run_B c i arg3 harg3 arg4 harg4 arg5 harg5 arg6 harg6 arg7 harg7 arg8 harg8 hc0 hc1 E K

/-! ## The proof data: every window forgotten -/

/-- Each window's current staging buffer at point `t`, as the pipeline passes it to the body, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
/-- The scratch accumulator: a whole scoped buffer of the kernel's own, passed beside the windows. -/
abbrev scM : Memref sig .tc .vmem S1024x1024 .f32 := Memref.whole cc0_scratch0

/-- The region invariant, spelled out: the one scoped buffer that is no staging buffer is the scratch accumulator,
    owned at some contents; and the generator register is in some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The proof data on core `c`: the arrays as the region finds them; the staging contents after the body NOT named
    (every window is forgotten below, so the field is never read); the invariant the same at every point (the scratch
    at some contents, the generator register at some state); full shares; nothing owed. -/
def dats (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! ## The body obligation -/

set_option maxHeartbeats 1000000 in
/-- The body at any point `t`: from the invariant (which lends the scratch at some contents), what the core owes
    (nothing, and the body neither signals nor waits), and the five current staging buffers at some contents each, the
    body runs and returns the same: the invariant takes the scratch back at whatever the body left in it. -/
theorem sound_body (c : Dev nD) (t : Fin cfg0.N) :
    iprop(Pipeline.ΦA spec0 c ∗ (dats m 0 c).owesAt () t.castSucc
        ∗ (∃ X, owns (c : Thread nD τ) (ms0_0 t) fullShare X) ∗ (∃ X, owns (c : Thread nD τ) (ms0_1 t) fullShare X) ∗ (∃ X, owns (c : Thread nD τ) (ms0_2 t) fullShare X)
        ∗ (∃ X, owns (c : Thread nD τ) (ms0_3 t) fullShare X) ∗ (∃ X, owns (c : Thread nD τ) (ms0_4 t) fullShare X))
      ⊢ wp frame (wpE (defs₀ (F := F)) Variants.none c none) Set.univ (bodyAt0 t) (fun _ =>
          iprop(Pipeline.ΦA spec0 c ∗ (dats m 0 c).owesAt () t.castSucc
            ∗ (∃ X, owns (c : Thread nD τ) (ms0_0 t) fullShare X) ∗ (∃ X, owns (c : Thread nD τ) (ms0_1 t) fullShare X) ∗ (∃ X, owns (c : Thread nD τ) (ms0_2 t) fullShare X)
            ∗ (∃ X, owns (c : Thread nD τ) (ms0_3 t) fullShare X) ∗ (∃ X, owns (c : Thread nD τ) (ms0_4 t) fullShare X))) := by
  unfold bodyAt0
  rw [PhiA0_eq]
  iintro ⟨⟨H8, Hg⟩, Ho, H3, H4, H5, H6, H7⟩
  iapply (run_any c (grid0.coords t) (ms0_0 t) (hs0_0 t) (ms0_1 t) (hs0_1 t) (ms0_2 t) (hs0_2 t) (ms0_3 t) (hs0_3 t) (ms0_4 t) (hs0_4 t) scM (Memref.isWhole_whole _) Set.univ _)
  unfold six
  isplitl [H3 H4 H5 H6 H7 H8]
  · isplitl [H3]; · iexact H3
    isplitl [H4]; · iexact H4
    isplitl [H5]; · iexact H5
    isplitl [H6]; · iexact H6
    isplitl [H7]; · iexact H7
    iexact H8
  iintro ⟨H3, H4, H5, H6, H7, H8⟩
  isplitl [H8 Hg]
  · isplitl [H8]; · iexact H8
    iexact Hg
  isplitl [Ho]; · iexact Ho
  isplitl [H3]; · iexact H3
  isplitl [H4]; · iexact H4
  isplitl [H5]; · iexact H5
  isplitl [H6]; · iexact H6
  iexact H7

/-- The body obligation with EVERY window forgotten: each current staging buffer is handed to the body at arbitrary
    contents and taken back at arbitrary contents. -/
theorem body_obligation (c : Dev nD) : BodyObligationLoose (dats (F := F) m 0 c) (defs₀ (F := F)) Variants.none () Set.univ (fun _ => true) := fun t => by
  rw [bigSep_W0]; try rw [bigSep_W0]
  exact sound_body m c t

/-! ## The run and the frame -/

/-- An input window's array is never written: whatever it may hold after the last point is what it held at the
    region's entry. -/
theorem in_eq (c : Dev nD) (w : Fin cfg0.W) (hw : (cfg0.win w).isOut = false)
    (G : Buf (Elt F) ((cfg0.win w).arr.view.loc (c.tc : Thread nD τ)))
    (h : ((dats m 0 c).toRForget (fun _ => true)).ArrAt w cfg0.N G) : G = V m c (Pipeline.arrRef spec0 w) := by
  rw [Pipeline.RDat.ArrAt_in _ w hw] at h
  exact h.trans (A_eq m c w)

set_option backward.isDefEq.respectTransparency.types false in
/-- At the compiled mesh, from any memory with zero counters: every weakly fair execution of @main on the TensorCores
    terminates, and in every final state each window's array holds something it may hold after every write-back (an
    input's: its entry contents) and every other unscoped buffer what it held at the region's entry. -/
theorem run_main : θ_run defs (onTc (τ := τ) (main (F := F))) (s₀ m ρ)
    (Pipeline.RDat.FramePost cfg0 (fun c => (dats m 0 c).toRForget (fun _ => true)) (V m)) :=
  Pipeline.RDat.θ_run_frame cfgs (0 : Fin 1) launch0 defs₀ Variants.none (fun c => (dats m 0 c).toRForget (fun _ => true)) m ρ main
    (hbody := fun c => (body_obligation m c).toRForget)
    (hshare := fun c => ((dats m 0 c).toRForget (fun _ => true)).share_full fun _ => rfl)
    (howed := fun _ _ => rfl) (V := V m)
    (hmain := hmain m Variants.none) (hA := fun c w => A_eq m c w) (hΦ := fun _ _ => rfl)

/-- THE FRAME, at any `F`: @main runs, and the four argument arrays end as launched. The activations, the weights and
    the bias row are arrays of input windows (never written; the host prefix does not write them either); the scale
    vector is read only by the host reshape, is no window's array, and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(in_eq m c 0 rfl _ ((h c).1 0)).trans (V_main_arg0 m c),
      (in_eq m c 1 rfl _ ((h c).1 1)).trans (V_main_arg1 m c),
      ((h c).2 main_arg2 (Pipeline.mem_restRefs_of main_arg2 (by decide) (by decide))).trans (V_main_arg2 m c),
      (in_eq m c 3 rfl _ ((h c).1 3)).trans (V_main_arg3 m c)⟩) (run_main m ρ)

end Cert.Kernel.HandFrame

end
-- ==== Proof.IdealBase.lean ====
/-
  What the runs of the idealized kernel's body share: its two branch conditions as functions of the grid point
  (the reduction axis is the innermost of the 4 × 11 × 8 grid, so a point's feature block is its number modulo 8:
  the accumulator is zeroed where that is 0 and the result block is stored where it is 7), where the result
  window is idle, the staging memrefs the body is called with, and the region invariant with the accumulator
  scratch spelled as a buffer owned at some contents.
-/
import proofs.«105307_j18786186953100_1_alg».proof.Proof.Gen.KernelIdeal.Frame
import proofs.«105307_j18786186953100_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken: the point's feature block is the first one. -/
abbrev condZ (i : grid0.Coords) : Prop :=
  (Scalar.cmpi .ne (Scalar.extui (Scalar.cmpi .eq (BitVec.ofNat 32 (i 2).val) 0#32)) 0#32) = 1#1
theorem hcondZ : ∀ t : Fin cfg0.N, condZ (grid0.coords t) ↔ t.val % 8 = 0 :=
  (by decide +kernel : ∀ t : Fin grid0.N, condZ (grid0.coords t) ↔ t.val % 8 = 0)

/-- The second branch is taken: the point's feature block is the last one. -/
abbrev condL (i : grid0.Coords) : Prop := k0_cond2 i = 1#1
theorem hcondL : ∀ t : Fin cfg0.N, condL (grid0.coords t) ↔ t.val % 8 = 7 :=
  (by decide +kernel : ∀ t : Fin grid0.N, condL (grid0.coords t) ↔ t.val % 8 = 7)

/-- The input windows are never idle; the result window is idle exactly off the last feature block, and is
    written back exactly there. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬condL (grid0.coords t) → cfg0.idle 4 (grid0.coords t) = true := by decide +kernel
theorem live4 : ∀ t : Fin cfg0.N, condL (grid0.coords t) → cfg0.idle 4 (grid0.coords t) = false := by decide +kernel
theorem noFlush4 : ∀ t : Fin cfg0.N, ¬condL (grid0.coords t) → (cfg0.win 4).flush t = false := by decide +kernel

/-- Each window's current staging memref at point `t`, as the pipeline passes it, and its wholeness. -/
abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S1024x1024 .f32 := Memref.whole cc0_scratch0

/-- The region invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.IdealRuns.lean ====
import proofs.«105307_j18786186953100_1_alg».proof.Proof.IdealBase
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The body on whole staging buffers and the accumulator, in each of the three cases the grid meets. Every load
    and store goes through the whole buffer, so a load reads the contents and a store leaves its payload. -/

theorem hz2 : (![0, 0] : Fin 2 → Nat) = fun _ => 0 := funext fun a => by fin_cases a <;> rfl

set_option maxHeartbeats 1000000 in
/-- First feature block: the accumulator, whatever it held, ends at the block product added to zero; the result's
    buffer and the scale and bias rows are not touched. -/
theorem runA (c : Dev nD) (i : grid0.Coords)
    (arg3 : Memref sig .tc .vmem S1024x512 .f32) (harg3 : arg3.IsWhole) (arg4 : Memref sig .tc .vmem S1024x512 .i32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1024x1024 .f32) (harg7 : arg7.IsWhole) (arg8 : Memref sig .tc .vmem S1024x1024 .f32) (harg8 : arg8.IsWhole)
    (hc0 : condZ i) (hc1 : ¬condL i)
    (x0 : Vec F S1024x512 .f32) (x1 : Vec F S1024x512 .i32) (x2 x3 : Vec F S1x1024 .f32) (x4 : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k0_pay2 x0 x1 (k0_pay1 (F := F)))) -∗ K ⟨⟩))
      ⊢ wp frame (wpE (defs₀ (F := F)) Variants.none c none) E (cc0__qint_matmul_kernel i arg3 harg3 arg4 harg4 arg5 harg5 arg6 harg6 arg7 harg7 arg8 harg8) K := by
  simp only [cc0__qint_matmul_kernel_eq_skeleton]; unfold cc0__qint_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  sl_unfold_words
  rw [View.read_writes_eq_canon _ _ _ (fun y => ⟨_, List.mem_cons_self, View.mem_set_unit_zero hz2 inb_S1024x1024_S1024x1024_0_0 y⟩),
    View.canon_cons_unit_zero hz2, View.readCov_unit_zero _ hz2]
  simp only [View.readAt_eq_ld, harg3.read_unread, harg4.read_unread,
    View.ld_unit_zero (S := S1024x512) hz2, View.ld_unit_zero (S := S1024x1024) hz2]

set_option maxHeartbeats 1000000 in
/-- A middle feature block: the accumulator ends at the block product added to what it held. -/
theorem runB (c : Dev nD) (i : grid0.Coords)
    (arg3 : Memref sig .tc .vmem S1024x512 .f32) (harg3 : arg3.IsWhole) (arg4 : Memref sig .tc .vmem S1024x512 .i32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1024x1024 .f32) (harg7 : arg7.IsWhole) (arg8 : Memref sig .tc .vmem S1024x1024 .f32) (harg8 : arg8.IsWhole)
    (hc0 : ¬condZ i) (hc1 : ¬condL i)
    (x0 : Vec F S1024x512 .f32) (x1 : Vec F S1024x512 .i32) (x2 x3 : Vec F S1x1024 .f32) (x4 xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (k0_pay2 x0 x1 xs)) -∗ K ⟨⟩))
      ⊢ wp frame (wpE (defs₀ (F := F)) Variants.none c none) E (cc0__qint_matmul_kernel i arg3 harg3 arg4 harg4 arg5 harg5 arg6 harg6 arg7 harg7 arg8 harg8) K := by
  simp only [cc0__qint_matmul_kernel_eq_skeleton]; unfold cc0__qint_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (fun y => ⟨_, List.mem_cons_self, View.mem_set_unit_zero hz2 inb_S1024x1024_S1024x1024_0_0 y⟩), View.canon_unit_zero hz2]
  simp only [View.readAt_eq_ld, harg3.read_unread, harg4.read_unread, harg8.read_unread,
    View.ld_unit_zero (S := S1024x512) hz2, View.ld_unit_zero (S := S1024x1024) hz2]

set_option maxHeartbeats 1000000 in
/-- Last feature block: the accumulator ends at the block product added to what it held, and the result's buffer,
    whatever it held, at that total scaled by the scale row plus the bias row. -/
theorem runC (c : Dev nD) (i : grid0.Coords)
    (arg3 : Memref sig .tc .vmem S1024x512 .f32) (harg3 : arg3.IsWhole) (arg4 : Memref sig .tc .vmem S1024x512 .i32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1024x1024 .f32) (harg7 : arg7.IsWhole) (arg8 : Memref sig .tc .vmem S1024x1024 .f32) (harg8 : arg8.IsWhole)
    (hc0 : ¬condZ i) (hc1 : condL i)
    (x0 : Vec F S1024x512 .f32) (x1 : Vec F S1024x512 .i32) (x2 x3 : Vec F S1x1024 .f32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k0_pay3 (k0_pay2 x0 x1 xs) x2 x3)
            ∗ owns (c : Thread nD τ) arg8 fullShare (k0_pay2 x0 x1 xs)) -∗ K ⟨⟩))
      ⊢ wp frame (wpE (defs₀ (F := F)) Variants.none c none) E (cc0__qint_matmul_kernel i arg3 harg3 arg4 harg4 arg5 harg5 arg6 harg6 arg7 harg7 arg8 harg8) K := by
  simp only [cc0__qint_matmul_kernel_eq_skeleton]; unfold cc0__qint_matmul_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2
  obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    sl_unfold_words
    rw [View.read_writes_eq_canon _ _ _ (fun y => ⟨_, List.mem_cons_self, View.mem_set_unit_zero hz2 inb_S1024x1024_S1024x1024_0_0 y⟩),
      View.canon_unit_zero hz2, View.readCov_unit_zero _ hz2]
    simp only [View.readAt_eq_ld, harg3.read_unread, harg4.read_unread, harg5.read_unread, harg6.read_unread, harg8.read_unread,
      View.ld_unit_zero (S := S1024x512) hz2, View.ld_unit_zero (S := S1024x1024) hz2, View.ld_unit_zero (S := S1x1024) hz2]
  iexists _; isplitr
  swap; · iexact HS
  ipureintro
  sl_unfold_words
  rw [View.read_writes_eq_canon _ _ _ (fun y => ⟨_, List.mem_cons_self, View.mem_set_unit_zero hz2 inb_S1024x1024_S1024x1024_0_0 y⟩), View.canon_unit_zero hz2]
  simp only [View.readAt_eq_ld, harg3.read_unread, harg4.read_unread, harg8.read_unread,
    View.ld_unit_zero (S := S1024x512) hz2, View.ld_unit_zero (S := S1024x1024) hz2]

end Cert.KernelIdeal.Hand

end
-- ==== Proof.Spec.lean ====
/-
  The specification both programs meet: a dense layer over int-quantized weights.  For activations `x` (4096 × 4096),
  integer weights `w` (11008 × 4096, one row per output channel), per-channel scales `s` and a bias row `b`,
  entry (r, o) of the result is

      (∑ k, x[r, k] · w[o, k]) · s[o] + b[0, o]

  over the extended reals, the integer weight read as the real number it denotes.  The sum over the 4096 input
  features is also written in eight consecutive blocks of 512, the grouping in which a blocked product meets it;
  addition of extended reals is commutative and associative, so the regrouping needs no finiteness.
-/
import Idealize.ShloMosaic.PureOps.Ideal
import Idealize.ShloMosaic.Lib.ValueIdx

noncomputable section

open scoped BigOperators

namespace Cert.QintSpec

open Idealize.ShloMosaic Idealize.ShloMosaic.ValueIdx

/-- The shapes, as literals (each program spells them by its own abbreviations, which unfold to these). -/
abbrev SX : Shape := ⟨2, ![4096, 4096]⟩
abbrev SW : Shape := ⟨2, ![11008, 4096]⟩
abbrev SS : Shape := ⟨1, ![11008]⟩
abbrev SB : Shape := ⟨2, ![1, 11008]⟩
abbrev SO : Shape := ⟨2, ![4096, 11008]⟩

/-- One product of the contraction: activation (r, k) times the weight (o, k) read as a real number. -/
def term (x : SX.Idx → EReal) (w : SW.Idx → BitVec 32) (r : Fin 4096) (o : Fin 11008) (k : Fin 4096) : EReal :=
  x (ix2 r k) * (((w (ix2 o k)).toInt : ℝ) : EReal)

/-- The whole contraction for entry (r, o). -/
def dot (x : SX.Idx → EReal) (w : SW.Idx → BitVec 32) (r : Fin 4096) (o : Fin 11008) : EReal :=
  ∑ k : Fin 4096, term x w r o k

/-- The result array: the contraction, scaled per output channel, plus the bias row. -/
def G (x : SX.Idx → EReal) (w : SW.Idx → BitVec 32) (s : SS.Idx → EReal) (b : SB.Idx → EReal) : SO.Idx → EReal :=
  fun i => dot x w (i 0) (i 1) * s (ix1 (i 1)) + b (ix2 (0 : Fin 1) (i 1))

/-- Feature `j` of block `q` (blocks of 512): feature `q · 512 + j`. -/
def feat (q : Fin 8) (j : Fin 512) : Fin 4096 := ⟨q.val * 512 + j.val, by have := q.isLt; have := j.isLt; omega⟩

/-- The contribution of block `q` of the features to entry (r, o). -/
def blockDot (x : SX.Idx → EReal) (w : SW.Idx → BitVec 32) (r : Fin 4096) (o : Fin 11008) (q : Fin 8) : EReal :=
  ∑ j : Fin 512, term x w r o (feat q j)

/-- The sum of the first `n` blocks' contributions. -/
def partialDot (x : SX.Idx → EReal) (w : SW.Idx → BitVec 32) (r : Fin 4096) (o : Fin 11008) (n : Nat) : EReal :=
  ∑ q : Fin 8, if q.val < n then blockDot x w r o q else 0

theorem partialDot_zero (x : SX.Idx → EReal) (w : SW.Idx → BitVec 32) (r : Fin 4096) (o : Fin 11008) :
    partialDot x w r o 0 = 0 := by
  unfold partialDot
  exact Finset.sum_eq_zero fun q _ => if_neg (Nat.not_lt_zero _)

/-- Adding block `q` to the first `q` blocks gives the first `q + 1`. -/
theorem partialDot_succ (x : SX.Idx → EReal) (w : SW.Idx → BitVec 32) (r : Fin 4096) (o : Fin 11008) (q : Fin 8) :
    partialDot x w r o (q.val + 1) = partialDot x w r o q.val + blockDot x w r o q := by
  unfold partialDot
  -- pointwise: "below q + 1" is "below q" or "equal to q", and the two cases exclude each other
  have h : ∀ q' : Fin 8, (if q'.val < q.val + 1 then blockDot x w r o q' else 0)
      = (if q'.val < q.val then blockDot x w r o q' else 0) + (if q' = q then blockDot x w r o q' else 0) := by
    intro q'
    by_cases h1 : q'.val < q.val
    · have h2 : q' ≠ q := fun h => by subst h; exact lt_irrefl _ h1
      have h3 : q'.val < q.val + 1 := by omega
      rw [if_pos h1, if_neg h2, if_pos h3, add_zero]
    · by_cases h2 : q' = q
      · subst h2
        rw [if_neg h1, if_pos rfl, if_pos (Nat.lt_succ_self _), zero_add]
      · have h3 : ¬ q'.val < q.val + 1 := by
          intro h
          apply h2
          apply Fin.ext
          omega
        rw [if_neg h1, if_neg h2, if_neg h3, add_zero]
  rw [Finset.sum_congr rfl (fun q' _ => h q'), Finset.sum_add_distrib, Finset.sum_ite_eq', if_pos (Finset.mem_univ q)]

/-- All eight blocks together are the whole contraction. -/
theorem partialDot_eight (x : SX.Idx → EReal) (w : SW.Idx → BitVec 32) (r : Fin 4096) (o : Fin 11008) :
    partialDot x w r o 8 = dot x w r o := by
  unfold partialDot dot blockDot
  -- every block index is below 8, so the guard is always true
  have h : ∀ q : Fin 8, (if q.val < 8 then ∑ j : Fin 512, term x w r o (feat q j) else 0)
      = ∑ j : Fin 512, term x w r o (feat q j) := fun q => if_pos q.isLt
  rw [Finset.sum_congr rfl (fun q _ => h q)]
  -- a double sum over (block, offset) is a sum over pairs, and the pairs are in bijection with the 4096 features
  have hp : (∑ q : Fin 8, ∑ j : Fin 512, term x w r o (feat q j))
      = ∑ p : Fin 8 × Fin 512, term x w r o (feat p.1 p.2) :=
    (Fintype.sum_prod_type' (fun (q : Fin 8) (j : Fin 512) => term x w r o (feat q j))).symm
  rw [hp]
  exact Fintype.sum_equiv (finProdFinEquiv : Fin 8 × Fin 512 ≃ Fin 4096) _ _ (fun p => by
    congr 1
    apply Fin.ext
    show p.1.val * 512 + p.2.val = p.2.val + 512 * p.1.val
    omega)

end Cert.QintSpec

end
-- ==== Proof.IdealData.lean ====
import proofs.«105307_j18786186953100_1_alg».proof.Proof.IdealRuns
import proofs.«105307_j18786186953100_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The specification at the arrays the region finds -/

/-- The per-channel scales: the region finds them as a row [1, 11008]; channel `o` is the row's entry (0, o). -/
def scaleRow (c : Dev nD) : Cert.QintSpec.SS.Idx → EReal :=
  fun j => (V m c main_v0 : S1x11008.Idx → EReal) (ix2 (0 : Fin 1) (j 0))

/-- The result array the specification gives for the arrays as the region finds them. -/
def Gm (c : Dev nD) : Buf (Elt Ideal) ((c : Thread nD τ).loc main_v1) :=
  Cert.QintSpec.G (V m c main_arg0) (V m c main_arg1) (scaleRow m c) (V m c main_arg3)

/-- The accumulator after point `t` is right on the columns inside the array: entry (r, cc) of the block is the
    contraction's first `t % 8 + 1` feature blocks for row `t / 88 · 1024 + r` and channel `t / 8 % 11 · 1024 + cc`.
    The columns of the last channel block that lie past the array's end hold what nothing names. -/
def AccOK (c : Dev nD) (t : Fin cfg0.N) (S : Vec Ideal S1024x1024 .f32) : Prop :=
  ∀ (r cc : Fin 1024) (hr : t.val / 88 * 1024 + r.val < 4096) (h : t.val / 8 % 11 * 1024 + cc.val < 11008),
    S (ix2 r cc) = Cert.QintSpec.partialDot (V m c main_arg0) (V m c main_arg1)
      ⟨t.val / 88 * 1024 + r.val, hr⟩ ⟨t.val / 8 % 11 * 1024 + cc.val, h⟩ (t.val % 8 + 1)

/-- The region invariant before position `n`: at the start the class's (the accumulator at anything); afterwards the
    accumulator at contents right on the columns inside the array, and the generator register at some state. -/
def PhiS (c : Dev nD) (n : Fin (cfg0.N + 1)) : sProp 𝕄 :=
  if h : n.val = 0 then Pipeline.ΦA spec0 c
  else iprop(iprop(∃ S, ⌜AccOK m c ⟨n.val - 1, by have := n.isLt; omega⟩ S⌝ ∗ owns (c : Thread nD τ) scM fullShare S) ∗ (∃ r, prngReg c r))

/-! ## The proof data -/

/-- After the body at point `t`: the activations' buffer at its block; the weights', scales' and bias's buffers at
    their blocks on the part inside the array (zero past it: nothing reads the filler); the result's buffer, at the
    points that store it, at the specification's block on the part inside the array. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#32) (iblk m c 1 t)
    | ⟨2, _⟩ => win0_2.fill (grid0.coords t) (fun _ => (0 : EReal)) (iblk m c 2 t)
    | ⟨3, _⟩ => win0_3.fill (grid0.coords t) (fun _ => (0 : EReal)) (iblk m c 3 t)
    | ⟨4, _⟩ => win0_4.fill (grid0.coords t) (fun _ => (0 : EReal)) ((win0_4.blk t).view.read (Elt Ideal) (Gm m c))
  Φ n := PhiS m c n
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => 0#32) (iblk m c 1 t) := by dsimp only [dats]
theorem after2 (c : Dev nD) (t : Fin cfg0.N) :
    (dats m 0 c).after 2 t = win0_2.fill (grid0.coords t) (fun _ => (0 : EReal)) (iblk m c 2 t) := by dsimp only [dats]
theorem after3 (c : Dev nD) (t : Fin cfg0.N) :
    (dats m 0 c).after 3 t = win0_3.fill (grid0.coords t) (fun _ => (0 : EReal)) (iblk m c 3 t) := by dsimp only [dats]
theorem after4 (c : Dev nD) (t : Fin cfg0.N) :
    (dats m 0 c).after 4 t = win0_4.fill (grid0.coords t) (fun _ => (0 : EReal)) ((win0_4.blk t).view.read (Elt Ideal) (Gm m c)) := by
  dsimp only [dats]

/-- The activations' buffer holds its block at every point. -/
theorem before0 (c : Dev nD) (t : Fin cfg0.N) (d) : (dats m 0 c).before 0 t d = iblk m c 0 t :=
  before0_0_of m (dats m 0 c) (A_eq m c 0) (after0 m c) t d

/-- A clipped input's buffer holds, at every point — fetched there or not, the block index not having moved —, its
    block on the part inside the array and what nothing names elsewhere. -/
theorem before1 (c : Dev nD) (t : Fin cfg0.N) (d) :
    (dats m 0 c).before 1 t d = win0_1.fill (grid0.coords t) d (iblk m c 1 t) :=
  ((dats m 0 c).before_in_eq_fetched 1 rfl (fun _ => rfl)
    (fun t t' h => funext fun a => by
      show Pipeline.Clip.of (win0_1.index t a) _ _ = Pipeline.Clip.of (win0_1.index t' a) _ _; rw [h])
    (fun t => by rw [after1]; exact (win0_1.cut_fill _ _ _).trans (by unfold Dat.blockOf iblk; rw [A_eq]; try rfl)) t d).trans
    (by unfold Dat.fetched Dat.blockOf iblk; rw [A_eq]; try rfl)
theorem before2 (c : Dev nD) (t : Fin cfg0.N) (d) :
    (dats m 0 c).before 2 t d = win0_2.fill (grid0.coords t) d (iblk m c 2 t) :=
  ((dats m 0 c).before_in_eq_fetched 2 rfl (fun _ => rfl)
    (fun t t' h => funext fun a => by
      show Pipeline.Clip.of (win0_2.index t a) _ _ = Pipeline.Clip.of (win0_2.index t' a) _ _; rw [h])
    (fun t => by rw [after2]; exact (win0_2.cut_fill _ _ _).trans (by unfold Dat.blockOf iblk; rw [A_eq]; try rfl)) t d).trans
    (by unfold Dat.fetched Dat.blockOf iblk; rw [A_eq]; try rfl)
theorem before3 (c : Dev nD) (t : Fin cfg0.N) (d) :
    (dats m 0 c).before 3 t d = win0_3.fill (grid0.coords t) d (iblk m c 3 t) :=
  ((dats m 0 c).before_in_eq_fetched 3 rfl (fun _ => rfl)
    (fun t t' h => funext fun a => by
      show Pipeline.Clip.of (win0_3.index t a) _ _ = Pipeline.Clip.of (win0_3.index t' a) _ _; rw [h])
    (fun t => by rw [after3]; exact (win0_3.cut_fill _ _ _).trans (by unfold Dat.blockOf iblk; rw [A_eq]; try rfl)) t d).trans
    (by unfold Dat.fetched Dat.blockOf iblk; rw [A_eq]; try rfl)

end Cert.KernelIdeal.Hand

end
-- ==== Proof.IdealBlocks.lean ====
/-
  Where the windows' blocks sit in their arrays.  The grid is 4 × 11 × 8, counted row-major: point t works on row
  block t / 88, channel block t / 8 mod 11 and feature block t mod 8.  A block's entry sits in its array, on each
  axis, at the block index times the block size plus the entry's coordinate inside the block.  The activations are
  cut into whole blocks.  The 11008 channels are ten blocks of 1024 and an eleventh of which only the first 768
  channels lie inside the arrays: the transfers of the weights, the scales, the bias and the result are cut there,
  and only the part inside is stated.  The result's blocks, written back at the last feature block of every
  (row block, channel block), cover the result array.
-/
import proofs.«105307_j18786186953100_1_alg».proof.Proof.IdealBase
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The index maps and the transfers' sizes, decided once over the grid's 352 points -/

theorem t_lt (t : Fin cfg0.N) : t.val < 352 := lt_of_lt_of_eq t.isLt N_0

theorem index0 : ∀ t : Fin cfg0.N, win0_0.index t 0 = t.val / 88 ∧ win0_0.index t 1 = t.val % 8 :=
  (by decide +kernel : ∀ t : Fin grid0.N, win0_0.index t (0 : Fin 2) = t.val / 88 ∧ win0_0.index t (1 : Fin 2) = t.val % 8)
theorem index1 : ∀ t : Fin cfg0.N, win0_1.index t 0 = t.val / 8 % 11 ∧ win0_1.index t 1 = t.val % 8 :=
  (by decide +kernel : ∀ t : Fin grid0.N, win0_1.index t (0 : Fin 2) = t.val / 8 % 11 ∧ win0_1.index t (1 : Fin 2) = t.val % 8)
theorem index2 : ∀ t : Fin cfg0.N, win0_2.index t 0 = 0 ∧ win0_2.index t 1 = t.val / 8 % 11 :=
  (by decide +kernel : ∀ t : Fin grid0.N, win0_2.index t (0 : Fin 2) = 0 ∧ win0_2.index t (1 : Fin 2) = t.val / 8 % 11)
theorem index3 : ∀ t : Fin cfg0.N, win0_3.index t 0 = 0 ∧ win0_3.index t 1 = t.val / 8 % 11 :=
  (by decide +kernel : ∀ t : Fin grid0.N, win0_3.index t (0 : Fin 2) = 0 ∧ win0_3.index t (1 : Fin 2) = t.val / 8 % 11)
theorem index4 : ∀ t : Fin cfg0.N, win0_4.index t 0 = t.val / 88 ∧ win0_4.index t 1 = t.val / 8 % 11 :=
  (by decide +kernel : ∀ t : Fin grid0.N, win0_4.index t (0 : Fin 2) = t.val / 88 ∧ win0_4.index t (1 : Fin 2) = t.val / 8 % 11)

/-- What a transfer moves of a block of 1024 channels: all of it, or what is left of the 11008. -/
theorem xsize1 : ∀ t : Fin cfg0.N, win0_1.xsize (grid0.coords t) 0 = min 1024 (11008 - t.val / 8 % 11 * 1024) ∧ win0_1.xsize (grid0.coords t) 1 = 512 :=
  (by decide +kernel : ∀ t : Fin grid0.N, win0_1.xsize (grid0.coords t) (0 : Fin 2) = min 1024 (11008 - t.val / 8 % 11 * 1024) ∧ win0_1.xsize (grid0.coords t) (1 : Fin 2) = 512)
theorem xsize2 : ∀ t : Fin cfg0.N, win0_2.xsize (grid0.coords t) 0 = 1 ∧ win0_2.xsize (grid0.coords t) 1 = min 1024 (11008 - t.val / 8 % 11 * 1024) :=
  (by decide +kernel : ∀ t : Fin grid0.N, win0_2.xsize (grid0.coords t) (0 : Fin 2) = 1 ∧ win0_2.xsize (grid0.coords t) (1 : Fin 2) = min 1024 (11008 - t.val / 8 % 11 * 1024))
theorem xsize3 : ∀ t : Fin cfg0.N, win0_3.xsize (grid0.coords t) 0 = 1 ∧ win0_3.xsize (grid0.coords t) 1 = min 1024 (11008 - t.val / 8 % 11 * 1024) :=
  (by decide +kernel : ∀ t : Fin grid0.N, win0_3.xsize (grid0.coords t) (0 : Fin 2) = 1 ∧ win0_3.xsize (grid0.coords t) (1 : Fin 2) = min 1024 (11008 - t.val / 8 % 11 * 1024))
theorem xsize4 : ∀ t : Fin cfg0.N, win0_4.xsize (grid0.coords t) 0 = 1024 ∧ win0_4.xsize (grid0.coords t) 1 = min 1024 (11008 - t.val / 8 % 11 * 1024) :=
  (by decide +kernel : ∀ t : Fin grid0.N, win0_4.xsize (grid0.coords t) (0 : Fin 2) = 1024 ∧ win0_4.xsize (grid0.coords t) (1 : Fin 2) = min 1024 (11008 - t.val / 8 % 11 * 1024))

/-! ## A block's coordinates in the arrays -/

/-- Row r of point t's row block. -/
def rowOf (t : Fin cfg0.N) (r : Fin 1024) : Fin 4096 :=
  ⟨t.val / 88 * 1024 + r.val, by have := t_lt t; have := r.isLt; omega⟩
/-- Feature j of point t's feature block. -/
def featOf (t : Fin cfg0.N) (j : Fin 512) : Fin 4096 :=
  ⟨t.val % 8 * 512 + j.val, by have := j.isLt; omega⟩
/-- Channel cc of point t's channel block, where it lies inside the 11008. -/
def colOf (t : Fin cfg0.N) (cc : Fin 1024) (h : t.val / 8 % 11 * 1024 + cc.val < 11008) : Fin 11008 :=
  ⟨t.val / 8 % 11 * 1024 + cc.val, h⟩

variable (m : (ℓ : Loc nD τ sig) → Buf (Elt F) ℓ)

/-! ## The input blocks read off their arrays -/

/-- The activation block at point t: rows of its row block, features of its feature block. -/
theorem blk0_apply (c : Dev nD) (t : Fin cfg0.N) (r : Fin 1024) (j : Fin 512) :
    iblk m c 0 t (ix2 r j) = (V m c main_arg0 : S4096x4096.Idx → Elt F .f32) (ix2 (rowOf t r) (featOf t j)) := by
  unfold iblk
  rw [View.read_apply]
  show V m c main_arg0 (((cfg0.win 0).blk t).view.emb (ix2 r j)) = V m c main_arg0 _
  refine congrArg _ (funext fun a => Fin.ext ?_)
  match a with
  | ⟨0, _⟩ =>
    show win0_0.index t 0 * 1024 + 1 * r.val = t.val / 88 * 1024 + r.val
    rw [(index0 t).1]; omega
  | ⟨1, _⟩ =>
    show win0_0.index t 1 * 512 + 1 * j.val = t.val % 8 * 512 + j.val
    rw [(index0 t).2]; omega

/-- The weight block at point t, on the channels inside the array: channels of its channel block, features of its
    feature block — whatever the staging buffer held before the transfer. -/
theorem blk1_apply (c : Dev nD) (t : Fin cfg0.N) (d : S1024x512.Idx → Elt F .i32) (cc : Fin 1024) (j : Fin 512)
    (h : t.val / 8 % 11 * 1024 + cc.val < 11008) :
    win0_1.fill (grid0.coords t) d (iblk m c 1 t) (ix2 cc j)
      = (V m c main_arg1 : S11008x4096.Idx → Elt F .i32) (ix2 (colOf t cc h) (featOf t j)) := by
  have hmv : win0_1.moved (grid0.coords t) (ix2 cc j) = true := (win0_1.moved_iff _ _).mpr fun a => by
    match a with
    | ⟨0, _⟩ =>
      show cc.val < win0_1.xsize (grid0.coords t) 0
      rw [(xsize1 t).1]; have := cc.isLt; omega
    | ⟨1, _⟩ =>
      show j.val < win0_1.xsize (grid0.coords t) 1
      rw [(xsize1 t).2]; exact j.isLt
  unfold Window.fill
  rw [dif_pos hmv]
  unfold iblk
  rw [View.read_apply]
  show V m c main_arg1 (((cfg0.win 1).blk t).view.emb _) = V m c main_arg1 _
  refine congrArg _ (funext fun a => Fin.ext ?_)
  match a with
  | ⟨0, _⟩ =>
    show win0_1.index t 0 * 1024 + 1 * cc.val = t.val / 8 % 11 * 1024 + cc.val
    rw [(index1 t).1]; omega
  | ⟨1, _⟩ =>
    show win0_1.index t 1 * 512 + 1 * j.val = t.val % 8 * 512 + j.val
    rw [(index1 t).2]; omega

/-- The scale block at point t, on the channels inside the array. -/
theorem blk2_apply (c : Dev nD) (t : Fin cfg0.N) (d : S1x1024.Idx → Elt F .f32) (cc : Fin 1024)
    (h : t.val / 8 % 11 * 1024 + cc.val < 11008) :
    win0_2.fill (grid0.coords t) d (iblk m c 2 t) (ix2 (0 : Fin 1) cc)
      = (V m c main_v0 : S1x11008.Idx → Elt F .f32) (ix2 (0 : Fin 1) (colOf t cc h)) := by
  have hmv : win0_2.moved (grid0.coords t) (ix2 (0 : Fin 1) cc) = true := (win0_2.moved_iff _ _).mpr fun a => by
    match a with
    | ⟨0, _⟩ =>
      show 0 < win0_2.xsize (grid0.coords t) 0
      rw [(xsize2 t).1]; exact Nat.one_pos
    | ⟨1, _⟩ =>
      show cc.val < win0_2.xsize (grid0.coords t) 1
      rw [(xsize2 t).2]; have := cc.isLt; omega
  unfold Window.fill
  rw [dif_pos hmv]
  unfold iblk
  rw [View.read_apply]
  show V m c main_v0 (((cfg0.win 2).blk t).view.emb _) = V m c main_v0 _
  refine congrArg _ (funext fun a => Fin.ext ?_)
  match a with
  | ⟨0, _⟩ =>
    show win0_2.index t 0 * 1 + 1 * 0 = 0
    rw [(index2 t).1]
  | ⟨1, _⟩ =>
    show win0_2.index t 1 * 1024 + 1 * cc.val = t.val / 8 % 11 * 1024 + cc.val
    rw [(index2 t).2]; omega

/-- The bias block at point t, on the channels inside the array. -/
theorem blk3_apply (c : Dev nD) (t : Fin cfg0.N) (d : S1x1024.Idx → Elt F .f32) (cc : Fin 1024)
    (h : t.val / 8 % 11 * 1024 + cc.val < 11008) :
    win0_3.fill (grid0.coords t) d (iblk m c 3 t) (ix2 (0 : Fin 1) cc)
      = (V m c main_arg3 : S1x11008.Idx → Elt F .f32) (ix2 (0 : Fin 1) (colOf t cc h)) := by
  have hmv : win0_3.moved (grid0.coords t) (ix2 (0 : Fin 1) cc) = true := (win0_3.moved_iff _ _).mpr fun a => by
    match a with
    | ⟨0, _⟩ =>
      show 0 < win0_3.xsize (grid0.coords t) 0
      rw [(xsize3 t).1]; exact Nat.one_pos
    | ⟨1, _⟩ =>
      show cc.val < win0_3.xsize (grid0.coords t) 1
      rw [(xsize3 t).2]; have := cc.isLt; omega
  unfold Window.fill
  rw [dif_pos hmv]
  unfold iblk
  rw [View.read_apply]
  show V m c main_arg3 (((cfg0.win 3).blk t).view.emb _) = V m c main_arg3 _
  refine congrArg _ (funext fun a => Fin.ext ?_)
  match a with
  | ⟨0, _⟩ =>
    show win0_3.index t 0 * 1 + 1 * 0 = 0
    rw [(index3 t).1]
  | ⟨1, _⟩ =>
    show win0_3.index t 1 * 1024 + 1 * cc.val = t.val / 8 % 11 * 1024 + cc.val
    rw [(index3 t).2]; omega

/-! ## The result block -/

/-- What the write-back at point t writes is the block of a whole-array function G, as soon as the staging buffer
    agrees with G on the channels inside the array. -/
theorem blk4_cut (c : Dev nD) (t : Fin cfg0.N) (S' : S1024x1024.Idx → Elt F .f32)
    (G : Buf (Elt F) ((c : Thread nD τ).loc main_v1))
    (hS : ∀ (r cc : Fin 1024) (h : t.val / 8 % 11 * 1024 + cc.val < 11008),
      S' (ix2 r cc) = (G : S4096x11008.Idx → Elt F .f32) (ix2 (rowOf t r) (colOf t cc h))) :
    win0_4.cut (grid0.coords t) S' = (win0_4.blk t).view.read (Elt F) G := by
  funext y
  rw [View.read_apply]
  have hy0 : (y 0).val < win0_4.xsize (grid0.coords t) 0 := (y 0).isLt
  have hy1 : (y 1).val < win0_4.xsize (grid0.coords t) 1 := (y 1).isLt
  rw [(xsize4 t).1] at hy0
  rw [(xsize4 t).2] at hy1
  have hcol : t.val / 8 % 11 * 1024 + (y 1).val < 11008 := by omega
  have e : win0_4.xinj (grid0.coords t) y = ix2 (⟨(y 0).val, hy0⟩ : Fin 1024) (⟨(y 1).val, by omega⟩ : Fin 1024) :=
    funext fun a => by match a with | ⟨0, _⟩ => rfl | ⟨1, _⟩ => rfl
  show S' (win0_4.xinj (grid0.coords t) y) = (G : S4096x11008.Idx → Elt F .f32) ((win0_4.blk t).view.emb y)
  rw [e, hS _ _ hcol]
  refine congrArg _ (funext fun a => Fin.ext ?_)
  match a with
  | ⟨0, _⟩ =>
    show t.val / 88 * 1024 + (y 0).val = win0_4.index t 0 * 1024 + 1 * (y 0).val
    rw [(index4 t).1]; omega
  | ⟨1, _⟩ =>
    show t.val / 8 % 11 * 1024 + (y 1).val = win0_4.index t 1 * 1024 + 1 * (y 1).val
    rw [(index4 t).2]; omega

/-- An entry of the result array lies in point t's block exactly when its row is in t's row block and its channel
    in t's channel block (the channel is below 11008 anyway, so the cut adds nothing). -/
theorem mem_blk4 (t : Fin cfg0.N) (i : S4096x11008.Idx) :
    i ∈ (win0_4.blk t).view.set ↔
      (t.val / 88 * 1024 ≤ (i 0).val ∧ (i 0).val < t.val / 88 * 1024 + 1024)
      ∧ (t.val / 8 % 11 * 1024 ≤ (i 1).val ∧ (i 1).val < t.val / 8 % 11 * 1024 + 1024) := by
  show i ∈ ((View.whole main_v1).slice (win0_4.rect t)).set ↔ _
  rw [View.set_slice_whole, Rect.mem_set_unit]
  have h1 : (i 1).val < 11008 := (i 1).isLt
  constructor
  · intro h
    have a0 := h 0
    have a1 := h 1
    change win0_4.index t 0 * 1024 ≤ (i 0).val ∧ (i 0).val < win0_4.index t 0 * 1024 + win0_4.xsize (grid0.coords t) 0 at a0
    change win0_4.index t 1 * 1024 ≤ (i 1).val ∧ (i 1).val < win0_4.index t 1 * 1024 + win0_4.xsize (grid0.coords t) 1 at a1
    rw [(index4 t).1, (xsize4 t).1] at a0
    rw [(index4 t).2, (xsize4 t).2] at a1
    exact ⟨a0, by omega⟩
  · intro h a
    match a with
    | ⟨0, _⟩ =>
      show win0_4.index t 0 * 1024 ≤ (i 0).val ∧ (i 0).val < win0_4.index t 0 * 1024 + win0_4.xsize (grid0.coords t) 0
      rw [(index4 t).1, (xsize4 t).1]; exact h.1
    | ⟨1, _⟩ =>
      show win0_4.index t 1 * 1024 ≤ (i 1).val ∧ (i 1).val < win0_4.index t 1 * 1024 + win0_4.xsize (grid0.coords t) 1
      rw [(index4 t).2, (xsize4 t).2]; omega

/-- Every entry of the result array lies in the block some point writes back: the last feature block's point of its
    row block and channel block. -/
theorem cover4 (c : Dev nD) : ∀ i : S4096x11008.Idx,
    ∃ t : Fin cfg0.N, (cfg0.win 4).flush t = true ∧ i ∈ ((cfg0.win 4).blk t).view.set := by
  intro i
  have h0 : (i 0).val < 4096 := (i 0).isLt
  have h1 : (i 1).val < 11008 := (i 1).isLt
  have hN : cfg0.N = 352 := N_0
  let tv : Nat := ((i 0).val / 1024 * 11 + (i 1).val / 1024) * 8 + 7
  have htv : tv < cfg0.N := by rw [hN]; show ((i 0).val / 1024 * 11 + (i 1).val / 1024) * 8 + 7 < 352; omega
  refine ⟨⟨tv, htv⟩, (flush0_4 _).mpr ?_, (mem_blk4 _ i).mpr ?_⟩
  · show (((i 0).val / 1024 * 11 + (i 1).val / 1024) * 8 + 7) % 8 = 7
    omega
  · show ((((i 0).val / 1024 * 11 + (i 1).val / 1024) * 8 + 7) / 88 * 1024 ≤ (i 0).val
        ∧ (i 0).val < (((i 0).val / 1024 * 11 + (i 1).val / 1024) * 8 + 7) / 88 * 1024 + 1024)
      ∧ ((((i 0).val / 1024 * 11 + (i 1).val / 1024) * 8 + 7) / 8 % 11 * 1024 ≤ (i 1).val
        ∧ (i 1).val < (((i 0).val / 1024 * 11 + (i 1).val / 1024) * 8 + 7) / 8 % 11 * 1024 + 1024)
    omega

/-! ## The scales as the region finds them -/

/-- The one host operation before the region lays the 11008 scales out as a row: entry (0, o) of that row is scale o. -/
theorem V_v0_apply (c : Dev nD) (o : Fin 11008) :
    (V m c main_v0 : S1x11008.Idx → Elt F .f32) (ix2 (0 : Fin 1) o)
      = (m ((c : Thread nD τ).loc main_arg2) : S11008.Idx → Elt F .f32) (ix1 o) := by
  have e : (V m c main_v0 : S1x11008.Idx → Elt F .f32)
      = shapeCast S1x11008 (m ((c : Thread nD τ).loc main_arg2) : S11008.Idx → Elt F .f32) shapeCasts_S11008_S1x11008 := by
    dsimp only [Gen.V, Gen.hostOps0]; after_results; rfl
  rw [e]
  refine shapeCast_apply _ _ _ _ ?_
  show (S11008.rowMajor (ix1 o)).val = (S1x11008.rowMajor (ix2 (0 : Fin 1) o)).val
  rw [Shape.rowMajor_val_one, Shape.rowMajor_val_two]
  show o.val = 0 * 11008 + o.val
  omega

end Cert.KernelIdeal.Hand

end
-- ==== Proof.IdealPayloads.lean ====
/-
  The three values the body stores, read at an index over the extended reals.

  * the zero block: every entry is 0;
  * the accumulation step: entry (r, c) of the new accumulator is the old entry plus the product of the activation
    block's row r with the weight block's row c over the block's 512 features — both operands are contracted along
    their second axis, the weights read as the real numbers they denote, the format changes the identity;
  * the closing step: entry (r, c) is the accumulator's entry times the scale of channel c plus the bias of channel c,
    the scale and bias rows spread over the 1024 rows.
-/
import proofs.«105307_j18786186953100_1_alg».proof.Proof.Gen.KernelIdeal.Skeleton
import Idealize.ShloMosaic.Lib.ValueIdx
import Idealize.ShloMosaic.PureOps.Ideal.Laws
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-! ## The zero block -/

theorem pay1_apply (j : S1024x1024.Idx) : k0_pay1 (F := Ideal) j = 0 := by
  unfold k0_pay1
  rw [shapeCast_self]
  exact Ideal.ofBits_zero_f32

/-! ## The block product: which operand entries meet at output entry (r, c) and feature k -/

theorem lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

theorem lhs_feat (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q

theorem rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

theorem rhs_feat (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The block product into the zero block, at entry (r, c): the sum over the 512 features of the left operand's
    (r, k) times the right operand's (c, k). -/
theorem matmul_sum (lhs rhs : FVec Ideal S1024x512 .bf16) (r cc : Fin 1024) :
    matmul dot_S1024x512_S1024x512_S1024x1024_1_1_0_0_n_n none lhs rhs (constant (F := Ideal) S1024x1024 .f32 0x00000000#32) (ix2 r cc)
      = ∑ k : Fin 512, lhs (ix2 r k) * rhs (ix2 cc k) := by
  simp only [matmul]
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r cc)
      ((contrEquiv1 dot_S1024x512_S1024x512_S1024x1024_1_1_0_0_n_n 512 rfl rfl).symm k) = ix2 r k :=
    funext fun a => Fin.ext (by
      match a with
      | ⟨0, _⟩ => exact lhs_row _ _
      | ⟨1, _⟩ => exact (lhs_feat _ _).trans hk)
  have er : dot_S1024x512_S1024x512_S1024x1024_1_1_0_0_n_n.rhsIdx (ix2 r cc)
      ((contrEquiv1 dot_S1024x512_S1024x512_S1024x1024_1_1_0_0_n_n 512 rfl rfl).symm k) = ix2 cc k :=
    funext fun a => Fin.ext (by
      match a with
      | ⟨0, _⟩ => exact rhs_row _ _
      | ⟨1, _⟩ => exact (rhs_feat _ _).trans hk)
  rw [el, er]

/-! ## The accumulation step -/

theorem pay2_apply (v3 : Vec Ideal S1024x512 .f32) (v5 : Vec Ideal S1024x512 .i32) (v7 : Vec Ideal S1024x1024 .f32)
    (r cc : Fin 1024) :
    k0_pay2 v3 v5 v7 (ix2 r cc)
      = v7 (ix2 r cc) + ∑ j : Fin 512, v3 (ix2 r j) * (((v5 (ix2 cc j)).toInt : ℝ) : EReal) := by
  unfold k0_pay2
  rw [shapeCast_self]
  refine (addf_apply _ _ _).trans ?_
  refine congrArg (v7 (ix2 r cc) + ·) ?_
  refine (matmul_sum _ _ r cc).trans ?_
  exact Finset.sum_congr rfl fun j _ => rfl

/-! ## The closing step -/

theorem pay3_apply (v16 : Vec Ideal S1024x1024 .f32) (v17 v21 : Vec Ideal S1x1024 .f32) (r cc : Fin 1024) :
    k0_pay3 v16 v17 v21 (ix2 r cc) = v16 (ix2 r cc) * v17 (ix2 (0 : Fin 1) cc) + v21 (ix2 (0 : Fin 1) cc) := by
  unfold k0_pay3
  rw [shapeCast_self]
  refine (addf_apply _ _ _).trans ?_
  rw [broadcastTo_1b_ab_apply]
  refine congrArg (· + v21 (ix2 (0 : Fin 1) cc)) ?_
  refine (mulf_apply _ _ _).trans ?_
  rw [broadcastTo_1b_ab_apply]

end Cert.KernelIdeal.Pay

end
-- ==== Proof.IdealStep.lean ====
import proofs.«105307_j18786186953100_1_alg».proof.Proof.IdealData
import proofs.«105307_j18786186953100_1_alg».proof.Proof.IdealBlocks
import proofs.«105307_j18786186953100_1_alg».proof.Proof.IdealPayloads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

open Cert.QintSpec (partialDot blockDot dot partialDot_zero partialDot_succ partialDot_eight)

/-! ## One step of the accumulation, and the epilogue, on the columns inside the array

At point `t` the body adds to the accumulator the product of the activations' block (rows `t / 88 · 1024 + r`, features
`t % 8 · 512 + j`) with the weights' block (channels `t / 8 % 11 · 1024 + cc`, the same features): for a channel
inside the array that is the contraction's feature block `t % 8`. -/

/-- The first `n + 1` feature blocks are the first `n` and block `n`. -/
theorem partialDot_step (x : Cert.QintSpec.SX.Idx → EReal) (w : Cert.QintSpec.SW.Idx → BitVec 32) (R : Fin 4096) (O : Fin 11008)
    (n : ℕ) (hn : n < 8) : partialDot x w R O (n + 1) = partialDot x w R O n + blockDot x w R O ⟨n, hn⟩ :=
  partialDot_succ x w R O ⟨n, hn⟩

theorem partialDot_congr (x : Cert.QintSpec.SX.Idx → EReal) (w : Cert.QintSpec.SW.Idx → BitVec 32) {R R' : Fin 4096} {O O' : Fin 11008}
    {n n' : ℕ} (hR : R.val = R'.val) (hO : O.val = O'.val) (hn : n = n') : partialDot x w R O n = partialDot x w R' O' n' := by
  rw [Fin.ext hR, Fin.ext hO, hn]

/-- The block product at one entry: when the activations' block reads row `R` at the features of block `q` and the
    weights' block reads channel `O` at the same features, it is the contraction's feature block `q` for (R, O). -/
theorem block_sum (X0 : Vec Ideal S1024x512 .f32) (X1 : Vec Ideal S1024x512 .i32)
    (x : Cert.QintSpec.SX.Idx → EReal) (w : Cert.QintSpec.SW.Idx → BitVec 32) (r cc : Fin 1024) (R : Fin 4096) (O : Fin 11008) (q : Fin 8)
    (hx : ∀ j : Fin 512, X0 (ix2 r j) = x (ix2 R (Cert.QintSpec.feat q j)))
    (hw : ∀ j : Fin 512, X1 (ix2 cc j) = w (ix2 O (Cert.QintSpec.feat q j))) :
    (∑ j : Fin 512, X0 (ix2 r j) * ((((X1 (ix2 cc j)).toInt : ℝ) : EReal))) = blockDot x w R O q := by
  unfold Cert.QintSpec.blockDot Cert.QintSpec.term
  exact Finset.sum_congr rfl fun j _ => by rw [hx j, hw j]

theorem accA (c : Dev nD) (t : Fin cfg0.N) (h0 : t.val % 8 = 0) (d1 : S1024x512.Idx → BitVec 32) :
    AccOK m c t (k0_pay2 (iblk m c 0 t) (win0_1.fill (grid0.coords t) d1 (iblk m c 1 t)) (k0_pay1 (F := Ideal))) := by
  intro r cc hr h
  refine (Cert.KernelIdeal.Pay.pay2_apply (iblk m c 0 t) (win0_1.fill (grid0.coords t) d1 (iblk m c 1 t)) (k0_pay1 (F := Ideal)) r cc).trans ?_
  rw [Cert.KernelIdeal.Pay.pay1_apply, zero_add, block_sum (iblk m c 0 t) (win0_1.fill (grid0.coords t) d1 (iblk m c 1 t)) (V m c main_arg0) (V m c main_arg1) r cc
      ⟨t.val / 88 * 1024 + r.val, hr⟩ ⟨t.val / 8 % 11 * 1024 + cc.val, h⟩ ⟨t.val % 8, Nat.mod_lt _ (by decide)⟩
      (fun j => blk0_apply m c t r j) (fun j => blk1_apply m c t d1 cc j h),
    partialDot_step _ _ _ _ (t.val % 8) (Nat.mod_lt _ (by decide))]
  have hz : partialDot (V m c main_arg0) (V m c main_arg1) ⟨t.val / 88 * 1024 + r.val, hr⟩ ⟨t.val / 8 % 11 * 1024 + cc.val, h⟩ (t.val % 8) = 0 := by
    rw [h0]; exact partialDot_zero _ _ _ _
  rw [hz, zero_add]

theorem accB (c : Dev nD) (t : Fin cfg0.N) (h0 : ¬t.val % 8 = 0) (d1 : S1024x512.Idx → BitVec 32)
    (S : Vec Ideal S1024x1024 .f32) (hS : AccOK m c ⟨t.val - 1, Nat.lt_of_le_of_lt (Nat.sub_le _ _) t.isLt⟩ S) :
    AccOK m c t (k0_pay2 (iblk m c 0 t) (win0_1.fill (grid0.coords t) d1 (iblk m c 1 t)) S) := by
  intro r cc hr h
  refine (Cert.KernelIdeal.Pay.pay2_apply (iblk m c 0 t) (win0_1.fill (grid0.coords t) d1 (iblk m c 1 t)) S r cc).trans ?_
  rw [block_sum (iblk m c 0 t) (win0_1.fill (grid0.coords t) d1 (iblk m c 1 t)) (V m c main_arg0) (V m c main_arg1) r cc
      ⟨t.val / 88 * 1024 + r.val, hr⟩ ⟨t.val / 8 % 11 * 1024 + cc.val, h⟩ ⟨t.val % 8, Nat.mod_lt _ (by decide)⟩
      (fun j => blk0_apply m c t r j) (fun j => blk1_apply m c t d1 cc j h),
    partialDot_step _ _ _ _ (t.val % 8) (Nat.mod_lt _ (by decide))]
  congr 1
  have hr' : (t.val - 1) / 88 * 1024 + r.val < 4096 := by omega
  have h' : (t.val - 1) / 8 % 11 * 1024 + cc.val < 11008 := by omega
  refine (hS r cc hr' h').trans ?_
  exact partialDot_congr _ _ (by dsimp only; omega) (by dsimp only; omega) (by dsimp only; omega)

theorem outC (c : Dev nD) (t : Fin cfg0.N) (h7 : t.val % 8 = 7) (d2 d3 : S1x1024.Idx → EReal)
    (S' : Vec Ideal S1024x1024 .f32) (hS : AccOK m c t S') :
    win0_4.cut (grid0.coords t) (k0_pay3 S' (win0_2.fill (grid0.coords t) d2 (iblk m c 2 t)) (win0_3.fill (grid0.coords t) d3 (iblk m c 3 t)))
      = (win0_4.blk t).view.read (Elt Ideal) (Gm m c) := by
  refine blk4_cut c t _ (Gm m c) fun r cc h => ?_
  have hr : t.val / 88 * 1024 + r.val < 4096 := by have := t_lt t; omega
  refine (Cert.KernelIdeal.Pay.pay3_apply S' (win0_2.fill (grid0.coords t) d2 (iblk m c 2 t)) (win0_3.fill (grid0.coords t) d3 (iblk m c 3 t)) r cc).trans ?_
  rw [hS r cc hr h, blk2_apply m c t d2 cc h, blk3_apply m c t d3 cc h]
  have e8 : t.val % 8 + 1 = 8 := by omega
  rw [e8, partialDot_eight]
  rfl

end Cert.KernelIdeal.Hand

end
-- ==== Proof.IdealBody.lean ====
import proofs.«105307_j18786186953100_1_alg».proof.Proof.IdealStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The invariant, position by position -/

theorem PhiS_zero (c : Dev nD) (n : Fin (cfg0.N + 1)) (hz : n.val = 0) : PhiS m c n = Pipeline.ΦA spec0 c := by
  unfold PhiS; rw [dif_pos hz]

theorem PhiS_pos (c : Dev nD) (n : Fin (cfg0.N + 1)) (hz : n.val ≠ 0) :
    PhiS m c n = iprop(iprop(∃ S, ⌜AccOK m c ⟨n.val - 1, by have := n.isLt; omega⟩ S⌝ ∗ owns (c : Thread nD τ) scM fullShare S) ∗ (∃ r, prngReg c r)) := by
  unfold PhiS; rw [dif_neg hz]

/-- After point `t`: the accumulator right at `t`. -/
theorem PhiS_succ (c : Dev nD) (t : Fin cfg0.N) :
    PhiS m c t.succ = iprop(iprop(∃ S, ⌜AccOK m c t S⌝ ∗ owns (c : Thread nD τ) scM fullShare S) ∗ (∃ r, prngReg c r)) := by
  rw [PhiS_pos m c t.succ (by simp)]; rfl

/-- Before a point that is not the first: the accumulator right at the point before. -/
theorem PhiS_cast (c : Dev nD) (t : Fin cfg0.N) (hz : t.val ≠ 0) :
    PhiS m c t.castSucc = iprop(iprop(∃ S, ⌜AccOK m c ⟨t.val - 1, Nat.lt_of_le_of_lt (Nat.sub_le _ _) t.isLt⟩ S⌝ ∗ owns (c : Thread nD τ) scM fullShare S) ∗ (∃ r, prngReg c r)) := by
  rw [PhiS_pos m c t.castSucc (by simpa using hz)]; rfl

/-- At any position the invariant holds the accumulator at SOME contents and the generator register. -/
theorem PhiS_forget (c : Dev nD) (n : Fin (cfg0.N + 1)) :
    PhiS m c n ⊢ (iprop(iprop(∃ d, owns (c : Thread nD τ) scM fullShare d) ∗ (∃ r, prngReg c r)) : sProp 𝕄) := by
  by_cases hz : n.val = 0
  · rw [PhiS_zero m c n hz, PhiA_eq]
  · rw [PhiS_pos m c n hz]
    iintro ⟨⟨%S, %hS, HS⟩, Hg⟩
    isplitl [HS]
    · iexists S; iexact HS
    iexact Hg

/-! ## What the obligation asks of each window's buffer after the body -/

theorem leaves0 (c : Dev nD) (t : Fin cfg0.N) :
    (dats m 0 c).leaves 0 t = owns (c : Thread nD τ) (ms0 t) fullShare (iblk m c 0 t) := by
  unfold Dat.leaves; rw [live0 t, after0]
theorem leaves1 (c : Dev nD) (t : Fin cfg0.N) :
    (dats m 0 c).leaves 1 t = iprop(∃ d, owns (c : Thread nD τ) (ms1 t) fullShare (win0_1.fill (grid0.coords t) d (iblk m c 1 t))) := by
  unfold Dat.leaves; rw [live1 t, after1]; simp only [Window.cut_fill]; rfl
theorem leaves2 (c : Dev nD) (t : Fin cfg0.N) :
    (dats m 0 c).leaves 2 t = iprop(∃ d, owns (c : Thread nD τ) (ms2 t) fullShare (win0_2.fill (grid0.coords t) d (iblk m c 2 t))) := by
  unfold Dat.leaves; rw [live2 t, after2]; simp only [Window.cut_fill]; rfl
theorem leaves3 (c : Dev nD) (t : Fin cfg0.N) :
    (dats m 0 c).leaves 3 t = iprop(∃ d, owns (c : Thread nD τ) (ms3 t) fullShare (win0_3.fill (grid0.coords t) d (iblk m c 3 t))) := by
  unfold Dat.leaves; rw [live3 t, after3]; simp only [Window.cut_fill]; rfl
theorem leaves4_last (c : Dev nD) (t : Fin cfg0.N) (hL : condL (grid0.coords t)) :
    (dats m 0 c).leaves 4 t = iprop(∃ d, owns (c : Thread nD τ) (ms4 t) fullShare
      (win0_4.fill (grid0.coords t) d ((win0_4.blk t).view.read (Elt Ideal) (Gm m c)))) := by
  unfold Dat.leaves; rw [live4 t hL, after4]; simp only [Window.cut_fill]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t)

set_option maxHeartbeats 1600000 in
/-- The body at any point. The inputs' buffers hold their blocks (filled out past the array's end with what nothing
    names); the point's feature block decides the case; the accumulator goes from right at the point before to right
    at this point (one more feature block added), and at the last feature block the result's buffer is left at the
    specification's block on the part inside the array. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    show (dats m 0 c).Φ t.succ = PhiS m c t.succ from rfl, PhiS_succ,
    show (dats m 0 c).Φ t.castSucc = PhiS m c t.castSucc from rfl,
    leaves0, leaves1, leaves2, leaves3]
  by_cases h0 : t.val % 8 = 0
  · have hL : ¬condL (grid0.coords t) := fun h => by have := (hcondL t).mp h; omega
    rw [Dat.leaves_idle (dats m 0 c) 4 t (idle4 t hL) (noFlush4 t hL)]
    refine (sep_mono (PhiS_forget m c t.castSucc) .rfl).trans ?_
    iintro ⟨⟨HS, Hg⟩, Ho, ⟨%d0, H0⟩, ⟨%d1, H1⟩, ⟨%d2, H2⟩, ⟨%d3, H3⟩, ⟨%d4, H4⟩⟩
    iapply (runA c (grid0.coords t) _ (hs0 t) _ (hs1 t) _ (hs2 t) _ (hs3 t) _ (hs4 t) scM (Memref.isWhole_whole _)
      ((hcondZ t).mpr h0) hL (iblk m c 0 t) (win0_1.fill (grid0.coords t) d1 (iblk m c 1 t))
      (win0_2.fill (grid0.coords t) d2 (iblk m c 2 t)) (win0_3.fill (grid0.coords t) d3 (iblk m c 3 t))
      ((dats m 0 c).before 4 t d4) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _; isplitr
        swap; · iexact HS
        ipureintro; exact accA m c t h0 d1
      iexact Hg
    isplitl [Ho]; · iexact Ho
    isplitl [H0]; · iexact H0
    isplitl [H1]; · iexists d1; iexact H1
    isplitl [H2]; · iexists d2; iexact H2
    isplitl [H3]; · iexists d3; iexact H3
    iexists d4; iexact H4
  · have hz : t.val ≠ 0 := fun h => h0 (by rw [h])
    rw [PhiS_cast m c t hz]
    by_cases h7 : t.val % 8 = 7
    · have hL : condL (grid0.coords t) := (hcondL t).mpr h7
      rw [leaves4_last m c t hL]
      iintro ⟨⟨⟨%S, %hS, HS⟩, Hg⟩, Ho, ⟨%d0, H0⟩, ⟨%d1, H1⟩, ⟨%d2, H2⟩, ⟨%d3, H3⟩, ⟨%d4, H4⟩⟩
      iapply (runC c (grid0.coords t) _ (hs0 t) _ (hs1 t) _ (hs2 t) _ (hs3 t) _ (hs4 t) scM (Memref.isWhole_whole _)
        (fun h => h0 ((hcondZ t).mp h)) hL (iblk m c 0 t) (win0_1.fill (grid0.coords t) d1 (iblk m c 1 t))
        (win0_2.fill (grid0.coords t) d2 (iblk m c 2 t)) (win0_3.fill (grid0.coords t) d3 (iblk m c 3 t))
        S Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]
        · iexists _; isplitr
          swap; · iexact HS
          ipureintro; exact accB m c t h0 d1 S hS
        iexact Hg
      isplitl [Ho]; · iexact Ho
      isplitl [H0]; · iexact H0
      isplitl [H1]; · iexists d1; iexact H1
      isplitl [H2]; · iexists d2; iexact H2
      isplitl [H3]; · iexists d3; iexact H3
      iexists (k0_pay3 (k0_pay2 (iblk m c 0 t) (win0_1.fill (grid0.coords t) d1 (iblk m c 1 t)) S)
        (win0_2.fill (grid0.coords t) d2 (iblk m c 2 t)) (win0_3.fill (grid0.coords t) d3 (iblk m c 3 t)))
      rw [← outC m c t h7 d2 d3 _ (accB m c t h0 d1 S hS), Window.fill_cut]
      iexact H4
    · have hL : ¬condL (grid0.coords t) := fun h => h7 ((hcondL t).mp h)
      rw [Dat.leaves_idle (dats m 0 c) 4 t (idle4 t hL) (noFlush4 t hL)]
      iintro ⟨⟨⟨%S, %hS, HS⟩, Hg⟩, Ho, ⟨%d0, H0⟩, ⟨%d1, H1⟩, ⟨%d2, H2⟩, ⟨%d3, H3⟩, ⟨%d4, H4⟩⟩
      iapply (runB c (grid0.coords t) _ (hs0 t) _ (hs1 t) _ (hs2 t) _ (hs3 t) _ (hs4 t) scM (Memref.isWhole_whole _)
        (fun h => h0 ((hcondZ t).mp h)) hL (iblk m c 0 t) (win0_1.fill (grid0.coords t) d1 (iblk m c 1 t))
        (win0_2.fill (grid0.coords t) d2 (iblk m c 2 t)) (win0_3.fill (grid0.coords t) d3 (iblk m c 3 t))
        ((dats m 0 c).before 4 t d4) S Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists _; isplitr
          swap; · iexact HS
          ipureintro; exact accB m c t h0 d1 S hS
        iexact Hg
      isplitl [Ho]; · iexact Ho
      isplitl [H0]; · iexact H0
      isplitl [H1]; · iexists d1; iexact H1
      isplitl [H2]; · iexists d2; iexact H2
      isplitl [H3]; · iexists d3; iexact H3
      iexists d4; iexact H4

/-- The library's body obligation, at every point. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 from rfl, PhiS_zero m c 0 rfl]

/-- and after the last point the invariant gives it back, what the accumulator holds forgotten. -/
theorem hout (c : Dev nD) : (dats m 0 c).Φ (Fin.last cfg0.N) ⊢ Pipeline.ΦA spec0 c := by
  rw [show (dats m 0 c).Φ (Fin.last cfg0.N) = PhiS m c (Fin.last cfg0.N) from rfl, PhiA_eq]
  exact PhiS_forget m c _

set_option backward.isDefEq.respectTransparency.types false in
/-- For any extended-real inputs, from any memory with zero counters: every weakly fair execution of @main
    terminates, every array of the pipeline ending at what the library computes from the proof data and every other
    unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.KernelIdeal.Hand

end
-- ==== Proof.IdealValue.lean ====
import proofs.«105307_j18786186953100_1_alg».proof.Proof.IdealBody
import proofs.«105307_j18786186953100_1_alg».proof.Proof.IdealBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## From the blocks to the array

The result's blocks are written back at the last feature block of every (row block, channel block) pair, each
cut at the array's end; what is written is the specification's block, and the blocks so written cover the array:
so the result array ends holding the specification's array. -/

/-- What the write-back at point `t` writes: the specification's block there. -/
theorem flushed4 (c : Dev nD) (t : Fin cfg0.N) :
    (dats m 0 c).flushed 4 t = ((cfg0.win 4).blk t).view.read (Elt Ideal) (Gm m c) := by
  show win0_4.cut (grid0.coords t) ((dats m 0 c).after 4 t) = _
  rw [after4]; exact win0_4.cut_fill _ _ _

/-- The result array after the run. -/
theorem final4 (c : Dev nD) : (dats m 0 c).arrAt 4 cfg0.N = Gm m c :=
  (dats m 0 c).arrAt_eq_of_cover 4 (Gm m c) (fun t _ => flushed4 m c t) (cover4 c)

/-- The specification over the arrays as launched: no host operation before the region writes an argument, and the
    row of scales the region finds is the scales array re-laid as [1, 11008]. -/
theorem Gm_eq (c : Dev nD) :
    Gm m c = Cert.QintSpec.G (m ((c : Thread nD τ).loc main_arg0)) (m ((c : Thread nD τ).loc main_arg1))
      (m ((c : Thread nD τ).loc main_arg2)) (m ((c : Thread nD τ).loc main_arg3)) := by
  have hs : scaleRow m c = (m ((c : Thread nD τ).loc main_arg2) : S11008.Idx → EReal) := funext fun j => by
    unfold scaleRow; rw [V_v0_apply m c (j 0)]; exact congrArg _ (eq_ix1 j).symm
  unfold Gm; rw [hs, V_main_arg0, V_main_arg1, V_main_arg3]

/-- The idealized kernel's frame: it runs to the end, nothing faults, the argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The idealized kernel's run: the result array ends at the specification of the arguments, which end unchanged. -/
theorem run_G : θ_run defs (onTc (τ := τ) (main (F := Ideal))) ⟨m, fun _ => 0, ρ⟩ (fun r => ∀ c : Dev nD,
      r.2.mem ((c.tc : Thread nD τ).loc main_v1)
        = Cert.QintSpec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans ((final4 m c).trans (Gm_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩) (run_main m ρ)

end Cert.KernelIdeal.Hand

end
-- ==== Proof.RefIsSpec.lean ====
/-
  The reference program is the specification.  Its seven operations — read the integer weights as real numbers,
  contract the activations with them over the feature axis, spread the per-channel scales and the bias row over
  the rows, multiply, add — give at entry (r, o), over the extended reals,

      (∑ k, x[r, k] · w[o, k]) · s[o] + b[0, o],

  which is entry (r, o) of `G`.  Each operation's result at an index is read from its operands at an index
  (the generated reading lemmas); what is left is that the indices those lemmas read at are the ones `G` names.
-/
import proofs.«105307_j18786186953100_1_alg».proof.Defs
import proofs.«105307_j18786186953100_1_alg».proof.Proof.Gen.ReferenceIdeal.Read
import proofs.«105307_j18786186953100_1_alg».proof.Proof.Gen.Pre_finite_inputs
import proofs.«105307_j18786186953100_1_alg».proof.Proof.Spec

noncomputable section

open scoped BigOperators

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.QintSpec

/-- The contraction reads the activations at (row of the entry, feature k). -/
theorem lidx_eq (i : S4096x11008.Idx) (k : Fin 4096) : lidx_main_v1 i k = ix2 (i 0) k :=
  funext fun a => Fin.ext (by match a with | ⟨0, _⟩ => rfl | ⟨1, _⟩ => rfl)

/-- The contraction reads the weights at (channel of the entry, feature k). -/
theorem ridx_eq (i : S4096x11008.Idx) (k : Fin 4096) : ridx_main_v1 i k = ix2 (i 1) k :=
  funext fun a => Fin.ext (by match a with | ⟨0, _⟩ => rfl | ⟨1, _⟩ => rfl)

/-- The scale spread over the rows is read at the channel of the entry. -/
theorem sidx_eq (i : S4096x11008.Idx) : idx_main_v2 (idx_main_v3 i) = ix1 (i 1) :=
  funext fun a => Fin.ext (by match a with | ⟨0, _⟩ => rfl)

/-- The bias row spread over the rows is read at (0, channel of the entry). -/
theorem bidx_eq (i : S4096x11008.Idx) : idx_main_v5 i = ix2 (0 : Fin 1) (i 1) :=
  funext fun a => Fin.ext (by match a with | ⟨0, _⟩ => rfl | ⟨1, _⟩ => rfl)

/-- The reference's result array is the specification's, entry by entry. -/
theorem ref_eq_G (x0 : (⟨Cert.ReferenceIdeal.S4096x4096, .f32⟩ : BufTy).Contents (Elt Ideal))
    (x1 : (⟨Cert.ReferenceIdeal.S11008x4096, .i32⟩ : BufTy).Contents (Elt Ideal))
    (x2 : (⟨Cert.ReferenceIdeal.S11008, .f32⟩ : BufTy).Contents (Elt Ideal))
    (x3 : (⟨Cert.ReferenceIdeal.S1x11008, .f32⟩ : BufTy).Contents (Elt Ideal)) :
    Cert.ReferenceIdeal.Read.val_main_v6 (F := Ideal) x0 x1 x2 x3 = Cert.QintSpec.G x0 x1 x2 x3 := by
  funext i
  rw [val_main_v6_apply, val_main_v4_apply, val_main_v1_apply, val_main_v3_apply, val_main_v2_apply,
    val_main_v5_apply, sidx_eq, bidx_eq]
  unfold G dot term
  rw [Ideal.addf_def, Ideal.mulf_def]
  congr 2
  refine Finset.sum_congr rfl fun k _ => ?_
  rw [val_main_v0_apply, lidx_eq, ridx_eq]
  rfl

/-- The reference's run, read at the specification: every weakly fair execution terminates with the result array
    at `G` of the argument arrays' launch contents. -/
theorem ref_run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
        = Cert.QintSpec.G (m ((c.tc : Thread nD τ).loc main_arg0)) (m ((c.tc : Thread nD τ).loc main_arg1))
            (m ((c.tc : Thread nD τ).loc main_arg2)) (m ((c.tc : Thread nD τ).loc main_arg3)) :=
  (θ_run defs _ _).mono (fun _ h c =>
      (h c).1.trans ((Cert.ReferenceIdeal.Read.val_main_v6_eq _ _ _ _).trans (ref_eq_G _ _ _ _)))
    (Cert.ReferenceIdeal.Value.run (F := Ideal) m ρ)

end Cert.ReferenceIdeal.RefValue

namespace Cert.Proof.RefClaims

/-- The reference terminates without fault and leaves its argument arrays unchanged. -/
theorem frame_ref : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.lean ====
/-
  The kernel is a dense layer over int-quantized weights: out = (x · wᵀ) · scales + bias, with x f32[4096, 4096],
  w int32[11008, 4096] (one row per output channel), scales f32[11008] and bias f32[1, 11008].  It runs on a
  4 × 11 × 8 grid of (1024 rows) × (1024 channels) × (512 features) blocks: at each point the activations' block
  times the weights' block (contracting the features) is added to an accumulator kept across the eight feature
  blocks — zeroed at the first — and at the last the accumulator, times the scales' row plus the bias's row, is
  the result's block.  11008 = 10 · 1024 + 768, so the last channel block overhangs the weights, the scales, the
  bias and the result; what the accumulator holds in those columns is never written to the result array.
  The reference is one contraction over all 4096 features, then the scale and the bias.

  Over the extended reals (every format change the identity, an integer weight the real number it denotes) both are

      out[r, o] = (∑ k, x[r, k] · w[o, k]) · scales[o] + bias[0, o]

  (`Cert.QintSpec.G`): the kernel's eight partial sums regroup the one sum, and addition of extended reals is
  commutative and associative, so no finiteness is used.  The three frames: the word-level kernel's by a body
  obligation that names no contents; the idealized kernel's from the same run that gives its value; the
  reference's from its run.  The idealization rewrote nothing, so `preserves` has nothing to state.
-/
import proofs.«105307_j18786186953100_1_alg».proof.Defs
import proofs.«105307_j18786186953100_1_alg».proof.Proof.Gen.Kernel
import proofs.«105307_j18786186953100_1_alg».proof.Proof.Gen.Kernel.Skeleton
import proofs.«105307_j18786186953100_1_alg».proof.Proof.Gen.Kernel.Launch
import proofs.«105307_j18786186953100_1_alg».proof.Proof.Gen.Kernel.Points
import proofs.«105307_j18786186953100_1_alg».proof.Proof.Gen.Kernel.Frame
import proofs.«105307_j18786186953100_1_alg».proof.Proof.Gen.KernelIdeal
import proofs.«105307_j18786186953100_1_alg».proof.Proof.Gen.KernelIdeal.Skeleton
import proofs.«105307_j18786186953100_1_alg».proof.Proof.Gen.KernelIdeal.Launch
import proofs.«105307_j18786186953100_1_alg».proof.Proof.Gen.KernelIdeal.Points
import proofs.«105307_j18786186953100_1_alg».proof.Proof.Gen.KernelIdeal.Frame
import proofs.«105307_j18786186953100_1_alg».proof.Proof.Gen.ReferenceIdeal
import proofs.«105307_j18786186953100_1_alg».proof.Proof.Gen.ReferenceIdeal.Run
import proofs.«105307_j18786186953100_1_alg».proof.Proof.Gen.ReferenceIdeal.Read
import proofs.«105307_j18786186953100_1_alg».proof.Proof.Gen.Pre_finite_inputs
import proofs.«105307_j18786186953100_1_alg».proof.Proof.KernelFrame
import proofs.«105307_j18786186953100_1_alg».proof.Proof.IdealValue
import proofs.«105307_j18786186953100_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_kernel : Cert.frame_Kernel := fun m ρ _ => Cert.Kernel.HandFrame.frame m ρ

/-- So does the idealized kernel. -/
theorem frame_kernelIdeal : Cert.frame_KernelIdeal := fun m ρ _ => Cert.KernelIdeal.Hand.frame m ρ

/-- From memories agreeing on the arguments both idealized programs end with the result at the specification of
    the arguments: the kernel's array block by block, the reference's as its composed term. -/
theorem algebraic : Cert.algebraic_KernelIdeal_ReferenceIdeal := by
  intro m ρ m' ρ' _ hagree
  refine ⟨fun c => Cert.QintSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_G m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v6_eq, Cert.ReferenceIdeal.RefValue.ref_eq_G,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, Cert.Proof.RefClaims.frame_ref, trivial, algebraic⟩

end Cert.Proof

end
